-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S800000 .f32) (main_arg3 : FVec F S800000x50 .f32) (main_arg4 : FVec F S50x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x50 .f32 := Host.absf main_arg3
  let main_cst_2 : FVec F S_ .f32 := constant S_ .f32 0x7F800000#32
  let main_v10 : FVec F S800000x50 .f32 := broadcastInDim S800000x50 ![] bcast_S_S800000x50 main_cst_2
  let main_v11 : IVec S800000x50 1 := cmpf .olt main_v9 main_v10
  let main_c_3 : IVec S_ 1 := constantI S_ 1 1#1
  let main_v12 : IVec S_ 1 := (fun x v => Host.reduce IntOp.andi x v reducesTo_S800000x50_S_d0_1 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S8000x50 : Shape := ⟨2, ![8000, 50]⟩
abbrev S8000x128 : Shape := ⟨2, ![8000, 128]⟩
abbrev S5000x128 : Shape := ⟨2, ![5000, 128]⟩

abbrev nBuf : Space → Nat
  | .hbm => 33
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S1x128, .f32⟩
  | .hbm, ⟨24, _⟩ => ⟨S1x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .local _ .vmem, ⟨0, _⟩ => ⟨S8000x50, .f32⟩
  | .local _ .vmem, ⟨1, _⟩ => ⟨S8000x50, .f32⟩
  | .local _ .vmem, ⟨2, _⟩ => ⟨S8000x128, .f32⟩
  | .local _ .vmem, ⟨3, _⟩ => ⟨S8000x128, .f32⟩
  | .local _ .vmem, ⟨4, _⟩ => ⟨S50x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S8000x128, .f32⟩
  | .local _ .vmem, ⟨9, _⟩ => ⟨S8000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S8000x50_S8000x50_0_0 : ∀ a, (![0, 0] : Fin 2 → Nat) a + S8000x50.size a ≤ S8000x50.size a
  h_S8000x50 : 0 < S8000x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x50_S50x128_S8000x128_1_0_0_1_n_n_wf : DotDims.WF S8000x50 S50x128 S8000x128 [1] [0] [0] [1] [] []
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x50.size a ≤ S800000x50.size a
  hwx0_0 : ∀ i : grid0.Coords, EltTy.bits .f32 = 32 ∨ (Rect.block (s := S800000x50) S8000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S800000x128.size a
  hwx0_6 : ∀ i : grid0.Coords, EltTy.bits .f32 = 32 ∨ (Rect.block (s := S800000x128) S8000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x50_S50x128_S8000x128_1_0_0_1_n_n : DotDims S8000x50 S50x128 S8000x128 where
  lhsContracting := [1]
  rhsContracting := [0]
  lhsNonContracting := [0]
  rhsNonContracting := [1]
  lhsBatch := []
  rhsBatch := []
  wf := dot_S8000x50_S50x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg3) S8000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S800000x128 : Shape := ⟨2, ![800000, 128]⟩
abbrev S1x128 : Shape := ⟨2, ![1, 128]⟩
abbrev S_ : Shape := ⟨0, ![]⟩
abbrev S1x800000 : Shape := ⟨2, ![1, 800000]⟩
abbrev S800000x1 : Shape := ⟨2, ![800000, 1]⟩

abbrev nBuf : Space → Nat
  | .hbm => 44
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S800000x128, .f32⟩
  | .hbm, ⟨11, _⟩ => ⟨S1x128, .f32⟩
  | .hbm, ⟨12, _⟩ => ⟨S800000x128, .f32⟩
  | .hbm, ⟨13, _⟩ => ⟨S800000x128, .f32⟩
  | .hbm, ⟨14, _⟩ => ⟨S_, .f32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S1x128, .f32⟩
  | .hbm, ⟨19, _⟩ => ⟨S800000x128, .f32⟩
  | .hbm, ⟨20, _⟩ => ⟨S800000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.NodeLayer.lean ====
/-
  The node kernel: one block of 5000 node rows times the whole 128 x 128 weight matrix, plus the bias row.

  Over the extended reals a change of float format is the identity and the matrix unit from the zero splat is the plain
  sum, so the entry the body stores at (p, q) of its block is  Σ_k x[p, k] · w[k, q] + b[0, q].  Block t holds rows
  5000·t … 5000·t + 4999 of the node array, the weight matrix and the bias row are the same block at every point, so what
  point t writes back is block t of ONE function of the three arrays the region finds: row i, column q of
  x @ w + b.  The ten blocks tile the 50000 rows.
-/
import proofs.«168052_j35201551958457_1_alg».proof.Proof.Gen.KernelIdeal.Frame
import proofs.«168052_j35201551958457_1_alg».proof.Proof.LibDotInner
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.NodeLayer

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- x @ w + b, entry by entry: the node layer of a whole array of node rows. -/
def nodeLayer (x : S50000x128.Idx → Elt Ideal .f32) (w : S128x128.Idx → Elt Ideal .f32) (b : S1x128.Idx → Elt Ideal .f32) :
    S50000x128.Idx → Elt Ideal .f32 :=
  fun i => (∑ k : Fin 128, x (ix2 (i 0) k) * w (ix2 k (i 1))) + b (ix2 0 (i 1))

/-! ## The matrix unit's operand indices: row of the left operand, column of the right, the contraction's coordinate -/

theorem node_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem node_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem node_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem node_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The bias row broadcast down the block's rows reads the row's entry of the column. -/
theorem bias_rows (x2 : Vec Ideal S1x128 .f32) (p : Fin 5000) (q : Fin 128) :
    broadcastTo S5000x128 x2 broadcasts_S1x128_S5000x128 (ix2 p q) = x2 (ix2 0 q) :=
  broadcastTo_apply x2 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- THE BODY'S STORED VALUE at entry (p, q) of the block: the row of the node block against the column of the weights,
    plus the bias of the column. -/
theorem node_pay (x0 : Vec Ideal S5000x128 .f32) (x1 : Vec Ideal S128x128 .f32) (x2 : Vec Ideal S1x128 .f32) (p : Fin 5000) (q : Fin 128) :
    k1_pay1 (F := Ideal) x0 x1 x2 (ix2 p q) = (∑ k : Fin 128, x0 (ix2 p k) * x1 (ix2 k q)) + x2 (ix2 0 q) := by
  unfold k1_pay1
  refine (addf_apply _ _ (ix2 p q)).trans ?_
  refine congrArg₂ (· + ·) ?_ ?_
  · refine (DotInner.matmul_zero_apply dot_S5000x128_S128x128_S5000x128_1_0_0_1_n_n rfl rfl node_l0 node_l1 node_r0 node_r1 none _ _ p q).trans ?_
    rw [shapeCast_self]
    rfl
  · rw [shapeCast_self]
    exact bias_rows x2 p q

/-! ## From the blocks to the array, at any contents `V` the region is entered with -/

section Region

variable (V : (c : Dev nD) → (b : Ref sig .tc) → Buf (Elt Ideal) ((c : Thread nD τ).loc b))

theorem zero_off : (![0, 0] : Fin 2 → Nat) = fun _ => 0 := funext fun a => by fin_cases a <;> rfl

/-- The block indices over the ten points: the node rows' block and the output's block are the point's number, the
    weights and the bias row stay at block 0. -/
theorem block_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the node layer of the three arrays as the region finds them. -/
theorem flushed_eq (c : Dev nD) (t : Fin cfg1.N) :
    (dat1 V c).flushed 3 t = ((cfg1.win 3).blk t).view.read (Elt Ideal)
      (nodeLayer (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_off]
  simp only [View.ld_unit_zero (S := S5000x128) zero_off, View.ld_unit_zero (S := S128x128) zero_off, View.ld_unit_zero (S := S1x128) zero_off]
  obtain ⟨e00, e01, e10, e11, e20, e21, e30, e31⟩ := block_idx t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = nodeLayer (V c (Pipeline.arrRef spec1 0)) (V c (Pipeline.arrRef spec1 1)) (V c (Pipeline.arrRef spec1 2)) (((cfg1.win 3).blk t).view.emb (ix2 p q))
  refine (node_pay (iblk1 V c 0 t) (iblk1 V c 1 t) (iblk1 V c 2 t) p q).trans ?_
  unfold nodeLayer
  refine congrArg₂ (· + ·) (Finset.sum_congr rfl fun k _ => congrArg₂ (· * ·) ?_ ?_) ?_
  · show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  · show V c (Pipeline.arrRef spec1 1) (((cfg1.win 1).blk t).view.emb (ix2 k q)) = _
    refine congrArg (V c (Pipeline.arrRef spec1 1)) (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  · show V c (Pipeline.arrRef spec1 2) (((cfg1.win 2).blk t).view.emb (ix2 0 q)) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the output array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v19).slice (win1_3.rect t)).set ↔ _
  rw [View.set_slice_whole, Rect.mem_set_unit]
  exact Iff.rfl

/-- The ten blocks of 5000 rows tile the 50000 rows: row r is in block r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e30, e31⟩ := block_idx t
  have et : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the region: the node layer of the three arrays the region was entered with. -/
theorem final (c : Dev nD) : (dat1 V c).arrAt 3 cfg1.N
    = nodeLayer (V c (Pipeline.arrRef spec1 0)) (V c (Pipeline.arrRef spec1 1)) (V c (Pipeline.arrRef spec1 2)) :=
  (dat1 V c).arrAt_eq_of_cover 3 _ (fun t _ => flushed_eq V c t) (cover)

end Region

end Cert.KernelIdeal.NodeLayer

end
-- ==== Proof.EdgeMessages.lean ====
/-
  The edge kernel: one block of 8000 edges through the two-layer filter network, times the neighbour's feature row.

  Over the extended reals a change of float format is the identity and the matrix unit from the zero splat is the plain
  sum, so the entry the body stores at (p, q) of its block is
      ( Σ_k2  max( Σ_k1 a[p, k1] · w1[k1, k2] + b1[0, k2], 0 ) · w2[k2, q]  +  b2[0, q] ) · n[p, q]
  with a the block of edge attributes and n the block of gathered neighbour rows. Block t holds edges 8000·t …
  8000·t + 7999; the two weight matrices and the two bias rows are the same block at every point. So what point t writes
  back is block t of ONE function of the six arrays the region finds, and the hundred blocks tile the 800000 edges.
-/
import proofs.«168052_j35201551958457_1_alg».proof.Proof.Gen.KernelIdeal.Frame
import proofs.«168052_j35201551958457_1_alg».proof.Proof.LibDotInner
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.EdgeMessages

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The hidden layer of the filter network at edge e, unit k2: relu of the first affine map. -/
def hidden {E : Nat} (a : (⟨2, ![E, 50]⟩ : Shape).Idx → Elt Ideal .f32) (w1 : S50x128.Idx → Elt Ideal .f32) (b1 : S1x128.Idx → Elt Ideal .f32)
    (e : Fin E) (k2 : Fin 128) : Elt Ideal .f32 :=
  max ((∑ k1 : Fin 50, a (ix2 e k1) * w1 (ix2 k1 k2)) + b1 (ix2 0 k2)) (Ideal.ofBits .f32 0x00000000#32)

/-- The message of edge e in feature q: the filter network's output times the neighbour's feature. -/
def message {E : Nat} (a : (⟨2, ![E, 50]⟩ : Shape).Idx → Elt Ideal .f32) (n : (⟨2, ![E, 128]⟩ : Shape).Idx → Elt Ideal .f32)
    (w1 : S50x128.Idx → Elt Ideal .f32) (b1 : S1x128.Idx → Elt Ideal .f32) (w2 : S128x128.Idx → Elt Ideal .f32) (b2 : S1x128.Idx → Elt Ideal .f32)
    (e : Fin E) (q : Fin 128) : Elt Ideal .f32 :=
  ((∑ k2 : Fin 128, hidden a w1 b1 e k2 * w2 (ix2 k2 q)) + b2 (ix2 0 q)) * n (ix2 e q)

/-- All the messages: the array the edge kernel computes from the six arrays it is given. -/
def messages (a : S800000x50.Idx → Elt Ideal .f32) (n : S800000x128.Idx → Elt Ideal .f32)
    (w1 : S50x128.Idx → Elt Ideal .f32) (b1 : S1x128.Idx → Elt Ideal .f32) (w2 : S128x128.Idx → Elt Ideal .f32) (b2 : S1x128.Idx → Elt Ideal .f32) :
    S800000x128.Idx → Elt Ideal .f32 :=
  fun i => message a n w1 b1 w2 b2 (i 0) (i 1)

/-! ## The two matrix units' operand indices -/

theorem first_l0 (i : S8000x128.Idx) (q : dot_S8000x50_S50x128_S8000x128_1_0_0_1_n_n.contr.Idx) : (dot_S8000x50_S50x128_S8000x128_1_0_0_1_n_n.lhsIdx i q 0).val = (i 0).val := by
  unfold DotDims.lhsIdx
  rw [dif_neg (show ¬(0 : Fin S8000x50.rank) ∈ dot_S8000x50_S50x128_S8000x128_1_0_0_1_n_n.lhsBatch by decide), dif_pos (show (0 : Fin S8000x50.rank) ∈ dot_S8000x50_S50x128_S8000x128_1_0_0_1_n_n.lhsNonContracting by decide)]
  rfl
theorem first_l1 (i : S8000x128.Idx) (q : dot_S8000x50_S50x128_S8000x128_1_0_0_1_n_n.contr.Idx) : (dot_S8000x50_S50x128_S8000x128_1_0_0_1_n_n.lhsIdx i q 1).val = (q ⟨0, by decide⟩).val :=
  dot_S8000x50_S50x128_S8000x128_1_0_0_1_n_n.lhsIdx_val_of_single rfl i q
theorem first_r0 (i : S8000x128.Idx) (q : dot_S8000x50_S50x128_S8000x128_1_0_0_1_n_n.contr.Idx) : (dot_S8000x50_S50x128_S8000x128_1_0_0_1_n_n.rhsIdx i q 0).val = (q ⟨0, by decide⟩).val :=
  dot_S8000x50_S50x128_S8000x128_1_0_0_1_n_n.rhsIdx_val_of_single rfl i q
theorem first_r1 (i : S8000x128.Idx) (q : dot_S8000x50_S50x128_S8000x128_1_0_0_1_n_n.contr.Idx) : (dot_S8000x50_S50x128_S8000x128_1_0_0_1_n_n.rhsIdx i q 1).val = (i 1).val := by
  unfold DotDims.rhsIdx
  rw [dif_neg (show ¬(1 : Fin S50x128.rank) ∈ dot_S8000x50_S50x128_S8000x128_1_0_0_1_n_n.rhsBatch by decide), dif_pos (show (1 : Fin S50x128.rank) ∈ dot_S8000x50_S50x128_S8000x128_1_0_0_1_n_n.rhsNonContracting by decide)]
  rfl

theorem second_l0 (i : S8000x128.Idx) (q : dot_S8000x128_S128x128_S8000x128_1_0_0_1_n_n.contr.Idx) : (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem second_l1 (i : S8000x128.Idx) (q : dot_S8000x128_S128x128_S8000x128_1_0_0_1_n_n.contr.Idx) : (dot_S8000x128_S128x128_S8000x128_1_0_0_1_n_n.lhsIdx i q 1).val = (q ⟨0, by decide⟩).val :=
  dot_S8000x128_S128x128_S8000x128_1_0_0_1_n_n.lhsIdx_val_of_single rfl i q
theorem second_r0 (i : S8000x128.Idx) (q : dot_S8000x128_S128x128_S8000x128_1_0_0_1_n_n.contr.Idx) : (dot_S8000x128_S128x128_S8000x128_1_0_0_1_n_n.rhsIdx i q 0).val = (q ⟨0, by decide⟩).val :=
  dot_S8000x128_S128x128_S8000x128_1_0_0_1_n_n.rhsIdx_val_of_single rfl i q
theorem second_r1 (i : S8000x128.Idx) (q : dot_S8000x128_S128x128_S8000x128_1_0_0_1_n_n.contr.Idx) : (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A bias row broadcast down the block's rows reads the row's entry of the column. -/
theorem bias_rows (x : Vec Ideal S1x128 .f32) (p : Fin 8000) (q : Fin 128) :
    broadcastTo S8000x128 x broadcasts_S1x128_S8000x128 (ix2 p q) = x (ix2 0 q) :=
  broadcastTo_apply x broadcasts_S1x128_S8000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The first affine map of the block at (p, k2). -/
theorem first_affine (x0 : Vec Ideal S8000x50 .f32) (x2 : Vec Ideal S50x128 .f32) (x5 : Vec Ideal S1x128 .f32) (p : Fin 8000) (k2 : Fin 128) :
    addf (matmul dot_S8000x50_S50x128_S8000x128_1_0_0_1_n_n none (truncf .bf16 x0 bitsLt_bf16_f32) (truncf .bf16 x2 bitsLt_bf16_f32) (constant (F := Ideal) S8000x128 .f32 0x00000000#32))
        (broadcastTo S8000x128 (shapeCast S1x128 x5 shapeCasts_S1x128_S1x128) broadcasts_S1x128_S8000x128) (ix2 p k2)
      = (∑ k1 : Fin 50, x0 (ix2 p k1) * x2 (ix2 k1 k2)) + x5 (ix2 0 k2) := by
  refine (addf_apply _ _ (ix2 p k2)).trans ?_
  refine congrArg₂ (· + ·) ?_ ?_
  · exact DotInner.matmul_zero_apply dot_S8000x50_S50x128_S8000x128_1_0_0_1_n_n rfl rfl first_l0 first_l1 first_r0 first_r1 none _ _ p k2
  · rw [shapeCast_self]
    exact bias_rows x5 p k2

/-- THE BODY'S STORED VALUE at entry (p, q) of the block is the message of the block's edge p in feature q. -/
theorem edge_pay (x0 : Vec Ideal S8000x50 .f32) (x2 : Vec Ideal S50x128 .f32) (x5 : Vec Ideal S1x128 .f32)
    (x11 : Vec Ideal S128x128 .f32) (x15 : Vec Ideal S1x128 .f32) (x19 : Vec Ideal S8000x128 .f32) (p : Fin 8000) (q : Fin 128) :
    k0_pay1 (F := Ideal) x0 x2 x5 x11 x15 x19 (ix2 p q) = message x0 x19 x2 x5 x11 x15 p q := by
  unfold k0_pay1 message
  refine (mulf_apply _ _ (ix2 p q)).trans ?_
  refine congrArg₂ (· * ·) ?_ ?_
  · refine (addf_apply _ _ (ix2 p q)).trans ?_
    refine congrArg₂ (· + ·) ?_ ?_
    · refine (DotInner.matmul_zero_apply dot_S8000x128_S128x128_S8000x128_1_0_0_1_n_n rfl rfl second_l0 second_l1 second_r0 second_r1 none _ _ p q).trans ?_
      refine Finset.sum_congr rfl fun k2 _ => congrArg₂ (· * ·) ?_ rfl
      unfold hidden
      refine (maximumf_apply _ _ (ix2 p k2)).trans ?_
      exact congrArg₂ max (first_affine x0 x2 x5 p k2) rfl
    · rw [shapeCast_self]
      exact bias_rows x15 p q
  · rw [shapeCast_self]

/-! ## From the blocks to the array, at any contents `V` the region is entered with -/

section Region

variable (V : (c : Dev nD) → (b : Ref sig .tc) → Buf (Elt Ideal) ((c : Thread nD τ).loc b))

theorem zero_off : (![0, 0] : Fin 2 → Nat) = fun _ => 0 := funext fun a => by fin_cases a <;> rfl

/-- The block indices over the hundred points: the edge attributes', the neighbour rows' and the output's block are the
    point's number, the weights and the bias rows stay at block 0. -/
theorem block_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the messages of the six arrays as the region finds them. -/
theorem flushed_eq (c : Dev nD) (t : Fin cfg0.N) :
    (dat0 V c).flushed 6 t = ((cfg0.win 6).blk t).view.read (Elt Ideal)
      (messages (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero zero_off]
  simp only [View.ld_unit_zero (S := S8000x50) zero_off, View.ld_unit_zero (S := S8000x128) zero_off, View.ld_unit_zero (S := S50x128) zero_off,
    View.ld_unit_zero (S := S128x128) zero_off, View.ld_unit_zero (S := S1x128) zero_off]
  obtain ⟨e00, e01, e10, e11, e20, e21, e30, e31, e40, e41, e50, e51, e60, e61⟩ := block_idx t
  funext j
  obtain ⟨p, q, rfl⟩ : ∃ (p : Fin 8000) (q : Fin 128), j = ix2 p q := ⟨j 0, j 1, eq_ix2 j⟩
  show k0_pay1 (F := Ideal) (iblk0 V c 0 t) (iblk0 V c 2 t) (iblk0 V c 3 t) (iblk0 V c 4 t) (iblk0 V c 5 t) (iblk0 V c 1 t) (ix2 p q)
    = messages (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (((cfg0.win 6).blk t).view.emb (ix2 p q))
  refine (edge_pay (iblk0 V c 0 t) (iblk0 V c 2 t) (iblk0 V c 3 t) (iblk0 V c 4 t) (iblk0 V c 5 t) (iblk0 V c 1 t) p q).trans ?_
  unfold messages message hidden
  refine congrArg₂ (· * ·) (congrArg₂ (· + ·) (Finset.sum_congr rfl fun k2 _ => congrArg₂ (· * ·)
    (congrArg₂ max (congrArg₂ (· + ·) (Finset.sum_congr rfl fun k1 _ => congrArg₂ (· * ·) ?_ ?_) ?_) rfl) ?_) ?_) ?_
  · show V c (Pipeline.arrRef spec0 0) (((cfg0.win 0).blk t).view.emb (ix2 p k1)) = _
    refine congrArg (V c (Pipeline.arrRef spec0 0)) (funext fun a => Fin.ext ?_)
    match a with
    | ⟨0, _⟩ => show win0_0.index t (0 : Fin 2) * 8000 + 1 * p.val = win0_6.index t (0 : Fin 2) * 8000 + 1 * p.val; omega
    | ⟨1, _⟩ => show win0_0.index t (1 : Fin 2) * 50 + 1 * k1.val = k1.val; omega
  · show V c (Pipeline.arrRef spec0 2) (((cfg0.win 2).blk t).view.emb (ix2 k1 k2)) = _
    refine congrArg (V c (Pipeline.arrRef spec0 2)) (funext fun a => Fin.ext ?_)
    match a with
    | ⟨0, _⟩ => show win0_2.index t (0 : Fin 2) * 50 + 1 * k1.val = k1.val; omega
    | ⟨1, _⟩ => show win0_2.index t (1 : Fin 2) * 128 + 1 * k2.val = k2.val; omega
  · show V c (Pipeline.arrRef spec0 3) (((cfg0.win 3).blk t).view.emb (ix2 0 k2)) = _
    refine congrArg (V c (Pipeline.arrRef spec0 3)) (funext fun a => Fin.ext ?_)
    match a with
    | ⟨0, _⟩ => show win0_3.index t (0 : Fin 2) * 1 + 1 * 0 = 0; omega
    | ⟨1, _⟩ => show win0_3.index t (1 : Fin 2) * 128 + 1 * k2.val = k2.val; omega
  · show V c (Pipeline.arrRef spec0 4) (((cfg0.win 4).blk t).view.emb (ix2 k2 q)) = _
    refine congrArg (V c (Pipeline.arrRef spec0 4)) (funext fun a => Fin.ext ?_)
    match a with
    | ⟨0, _⟩ => show win0_4.index t (0 : Fin 2) * 128 + 1 * k2.val = k2.val; omega
    | ⟨1, _⟩ => show win0_4.index t (1 : Fin 2) * 128 + 1 * q.val = win0_6.index t (1 : Fin 2) * 128 + 1 * q.val; omega
  · show V c (Pipeline.arrRef spec0 5) (((cfg0.win 5).blk t).view.emb (ix2 0 q)) = _
    refine congrArg (V c (Pipeline.arrRef spec0 5)) (funext fun a => Fin.ext ?_)
    match a with
    | ⟨0, _⟩ => show win0_5.index t (0 : Fin 2) * 1 + 1 * 0 = 0; omega
    | ⟨1, _⟩ => show win0_5.index t (1 : Fin 2) * 128 + 1 * q.val = win0_6.index t (1 : Fin 2) * 128 + 1 * q.val; omega
  · show V c (Pipeline.arrRef spec0 1) (((cfg0.win 1).blk t).view.emb (ix2 p q)) = _
    refine congrArg (V c (Pipeline.arrRef spec0 1)) (funext fun a => Fin.ext ?_)
    match a with
    | ⟨0, _⟩ => show win0_1.index t (0 : Fin 2) * 8000 + 1 * p.val = win0_6.index t (0 : Fin 2) * 8000 + 1 * p.val; omega
    | ⟨1, _⟩ => show win0_1.index t (1 : Fin 2) * 128 + 1 * q.val = win0_6.index t (1 : Fin 2) * 128 + 1 * q.val; omega

/-- An index of the output array is in point `t`'s block iff each coordinate is in the block's range on its axis. -/
theorem mem_blk (t : Fin cfg0.N) (i : S800000x128.Idx) :
    i ∈ ((cfg0.win 6).blk t).view.set ↔ ∀ a : Fin 2, win0_6.index t a * S8000x128.size a ≤ (i a).val ∧ (i a).val < win0_6.index t a * S8000x128.size a + S8000x128.size a := by
  show i ∈ ((View.whole main_v13).slice (win0_6.rect t)).set ↔ _
  rw [View.set_slice_whole, Rect.mem_set_unit]
  exact Iff.rfl

/-- The hundred blocks of 8000 edges tile the 800000 edges: edge e is in block e / 8000. -/
theorem cover (i : S800000x128.Idx) : ∃ t : Fin cfg0.N, (cfg0.win 6).flush t = true ∧ i ∈ ((cfg0.win 6).blk t).view.set := by
  have hi0 : (i 0).val < 800000 := (i 0).isLt
  have hi1 : (i 1).val < 128 := (i 1).isLt
  have hN : cfg0.N = 100 := N_0
  let t : Fin cfg0.N := ⟨(i 0).val / 8000, by rw [hN]; omega⟩
  obtain ⟨-, -, -, -, -, -, -, -, -, -, -, -, e60, e61⟩ := block_idx t
  have et : t.val = (i 0).val / 8000 := rfl
  refine ⟨t, flush0_6 t, ?_⟩
  rw [mem_blk]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 128 ≤ (i 1).val ∧ (i 1).val < win0_6.index t (1 : Fin 2) * 128 + 128; omega

/-- THE OUTPUT ARRAY after the region: the messages of the six arrays the region was entered with. -/
theorem final (c : Dev nD) : (dat0 V c).arrAt 6 cfg0.N
    = messages (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 6 _ (fun t _ => flushed_eq V c t) (cover)

end Region

end Cert.KernelIdeal.EdgeMessages

end
-- ==== Proof.KernelRun.lean ====
/-
  The idealized kernel's run with its result named.

  The program is four stretches in order: the host operations that slice the edge list, normalise the neighbour
  indices and gather the neighbour rows; the edge kernel over its 100 blocks of 8000 edges; the host operations that
  sum the messages onto their source nodes and add the node features; the node kernel over its 10 blocks of 5000
  nodes. The buffer contents at the four boundaries are a fold from the launch memory (`W1` … `W4` of the generated
  frame module). Every weakly fair execution terminates, nothing faulting, with every unscoped buffer at the last
  boundary's contents `W4`: read here at the result's buffer as well as at the ten arguments.
-/
import proofs.«168052_j35201551958457_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments from the launch memory: the result's buffer ends at the last boundary's contents,
    the argument arrays as launched. -/
theorem run_named : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.KernelValue.lean ====
/-
  What the idealized kernel computes, as one function of its argument arrays.

  With h the node features, (s, d) the two rows of the edge list, a the edge attributes and (w1, b1, w2, b2), (w3, b3) the
  filter network's and the node layer's weights:
      rows     = h[d]                                   (a negative index wraps round)
      messages = (relu(a @ w1 + b1) @ w2 + b2) * rows    (the edge kernel, block by block)
      updated  = h + Σ of the messages onto their source nodes s
      result   = updated @ w3 + b3                       (the node kernel, block by block)
  The host operations between the two kernels are kept as the program spells them (the same gather and the same
  scatter-add the reference applies); the two kernels are their whole-array functions. The contents at each boundary of
  the run are read back one stretch at a time: each region's output array is its function of the arrays it was entered
  with, and each host stretch's buffers are its operations' values of the buffers before it.
-/
import proofs.«168052_j35201551958457_1_alg».proof.Proof.Gen.KernelIdeal.Frame
import proofs.«168052_j35201551958457_1_alg».proof.Proof.NodeLayer
import proofs.«168052_j35201551958457_1_alg».proof.Proof.EdgeMessages
import proofs.«168052_j35201551958457_1_alg».proof.Proof.KernelRun
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Cert.KernelIdeal.EdgeMessages (messages)
open Cert.KernelIdeal.NodeLayer (nodeLayer)

/-! ## The host operations, named -/

/-- Row 0 of the edge list: the node each edge's message is summed onto. -/
def sources (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list: the neighbour each edge reads. -/
def neighbours (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The neighbours as a column of start indices, a negative one wrapped round by the number of nodes. -/
def startRows (ei : (⟨S2x800000, .i32⟩ : BufTy).Contents (Elt Ideal)) : (⟨S800000x1, .i32⟩ : BufTy).Contents (Elt Ideal) :=
  broadcastInDim S800000x1 ![0] bcast_S800000_S800000x1_0
    (select (cmpi .slt (neighbours ei) (broadcastInDim S800000 ![] bcast_S_S800000 (constantI S_ 32 0#32)))
      (addi (neighbours ei) (broadcastInDim S800000 ![] bcast_S_S800000 (constantI S_ 32 50000#32)))
      (neighbours ei))

/-- The neighbour's feature row of every edge. -/
def neighbourRows (h : (⟨S50000x128, .f32⟩ : BufTy).Contents (Elt Ideal)) (ei : (⟨S2x800000, .i32⟩ : BufTy).Contents (Elt Ideal)) : (⟨S800000x128, .f32⟩ : BufTy).Contents (Elt Ideal) :=
  Host.gather gather_S50000x128_S800000x1_S800000x128_1_0_n_n_0_1_1128 h (startRows ei)

/-- A bias vector as a one-row matrix. -/
def biasRow (b : (⟨S128, .f32⟩ : BufTy).Contents (Elt Ideal)) : (⟨S1x128, .f32⟩ : BufTy).Contents (Elt Ideal) :=
  shapeCast _ b shapeCasts_S128_S1x128

/-- The one-row matrix reads the vector's entry of the column. -/
theorem biasRow_apply (b : (⟨S128, .f32⟩ : BufTy).Contents (Elt Ideal)) (q : Fin 128) : biasRow b (ix2 0 q) = b (ix1 q) := by
  unfold biasRow
  refine (shapeCast_addUnit_apply (n := 1) ![128] b shapeCasts_S128_S1x128 (ix2 0 q)).trans (congrArg b ?_)
  funext a
  match a with
  | ⟨0, _⟩ => rfl

/-- The node features plus the sum of the messages onto their source nodes. -/
def updated (h : (⟨S50000x128, .f32⟩ : BufTy).Contents (Elt Ideal)) (ei : (⟨S2x800000, .i32⟩ : BufTy).Contents (Elt Ideal)) (msgs : (⟨S800000x128, .f32⟩ : BufTy).Contents (Elt Ideal)) : (⟨S50000x128, .f32⟩ : BufTy).Contents (Elt Ideal) :=
  addf (F := Ideal) h (Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (sources ei)) msgs)

/-- THE KERNEL'S FUNCTION of its nine live arguments. -/
def value (h : (⟨S50000x128, .f32⟩ : BufTy).Contents (Elt Ideal)) (ei : (⟨S2x800000, .i32⟩ : BufTy).Contents (Elt Ideal)) (a : (⟨S800000x50, .f32⟩ : BufTy).Contents (Elt Ideal))
    (w1 : (⟨S50x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal))
    (w3 : (⟨S128x128, .f32⟩ : BufTy).Contents (Elt Ideal)) (b3 : (⟨S128, .f32⟩ : BufTy).Contents (Elt Ideal)) : (⟨S50000x128, .f32⟩ : BufTy).Contents (Elt Ideal) :=
  nodeLayer (updated h ei (messages a (neighbourRows h ei) w1 (biasRow b1) w2 (biasRow b2))) w3 (biasRow b3)

/-! ## The contents at the boundaries of the run -/

variable (m : (ℓ : Loc nD τ sig) → Buf (Elt Ideal) ℓ) (ρ : Dev nD → PrngReg)

/-! ### At the edge kernel's entry: after the first host stretch -/

theorem entry_attrs (c : Dev nD) : V1 m ρ c (Pipeline.arrRef spec0 0) = (m ((c : Thread nD τ).loc main_arg3)) := by
  show StableHlo.after hostOps0 (W0 m ρ c) (Proc.devRef .tc main_arg3) = _
  after_results <;> rfl
theorem entry_rows (c : Dev nD) : V1 m ρ c (Pipeline.arrRef spec0 1) = neighbourRows (m ((c : Thread nD τ).loc main_arg0)) (m ((c : Thread nD τ).loc main_arg1)) := by
  show StableHlo.after hostOps0 (W0 m ρ c) (Proc.devRef .tc main_v10) = _
  after_results <;> rfl
theorem entry_w1 (c : Dev nD) : V1 m ρ c (Pipeline.arrRef spec0 2) = (m ((c : Thread nD τ).loc main_arg4)) := by
  show StableHlo.after hostOps0 (W0 m ρ c) (Proc.devRef .tc main_arg4) = _
  after_results <;> rfl
theorem entry_b1 (c : Dev nD) : V1 m ρ c (Pipeline.arrRef spec0 3) = biasRow (m ((c : Thread nD τ).loc main_arg5)) := by
  show StableHlo.after hostOps0 (W0 m ρ c) (Proc.devRef .tc main_v11) = _
  after_results <;> rfl
theorem entry_w2 (c : Dev nD) : V1 m ρ c (Pipeline.arrRef spec0 4) = (m ((c : Thread nD τ).loc main_arg6)) := by
  show StableHlo.after hostOps0 (W0 m ρ c) (Proc.devRef .tc main_arg6) = _
  after_results <;> rfl
theorem entry_b2 (c : Dev nD) : V1 m ρ c (Pipeline.arrRef spec0 5) = biasRow (m ((c : Thread nD τ).loc main_arg7)) := by
  show StableHlo.after hostOps0 (W0 m ρ c) (Proc.devRef .tc main_v12) = _
  after_results <;> rfl

/-! ### At the edge kernel's exit: its output array is the messages; what it does not write is as the first stretch left it -/

theorem exit_messages (c : Dev nD) : W2 m ρ c (Proc.devRef .tc main_v13) = (messages (m ((c : Thread nD τ).loc main_arg3)) (neighbourRows (m ((c : Thread nD τ).loc main_arg0)) (m ((c : Thread nD τ).loc main_arg1))) (m ((c : Thread nD τ).loc main_arg4)) (biasRow (m ((c : Thread nD τ).loc main_arg5))) (m ((c : Thread nD τ).loc main_arg6)) (biasRow (m ((c : Thread nD τ).loc main_arg7)))) := by
  refine (W2_arr m ρ c 6).trans ?_
  rw [EdgeMessages.final (V1 m ρ) c, entry_attrs m ρ c, entry_rows m ρ c, entry_w1 m ρ c, entry_b1 m ρ c, entry_w2 m ρ c, entry_b2 m ρ c]

theorem exit_features (c : Dev nD) : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results <;> rfl
theorem exit_sources (c : Dev nD) : W2 m ρ c (Proc.devRef .tc main_v1) = sources (m ((c : Thread nD τ).loc main_arg1)) := by
  refine (W2_of_ne m ρ c main_v1 (by decide)).trans ?_
  show StableHlo.after hostOps0 (W0 m ρ c) (Proc.devRef .tc main_v1) = _
  after_results <;> rfl
theorem exit_w3 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results <;> rfl
theorem exit_b3 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results <;> rfl

/-! ### At the node kernel's entry: after the second host stretch -/

theorem entry_updated (c : Dev nD) : V3 m ρ c (Pipeline.arrRef spec1 0) = updated (m ((c : Thread nD τ).loc main_arg0)) (m ((c : Thread nD τ).loc main_arg1)) (messages (m ((c : Thread nD τ).loc main_arg3)) (neighbourRows (m ((c : Thread nD τ).loc main_arg0)) (m ((c : Thread nD τ).loc main_arg1))) (m ((c : Thread nD τ).loc main_arg4)) (biasRow (m ((c : Thread nD τ).loc main_arg5))) (m ((c : Thread nD τ).loc main_arg6)) (biasRow (m ((c : Thread nD τ).loc main_arg7)))) := by
  show StableHlo.after hostOps1 (W2 m ρ c) (Proc.devRef .tc main_v17) = _
  after_results
  rw [exit_features m ρ c, exit_sources m ρ c, exit_messages m ρ c]
  rfl
theorem entry_w3 (c : Dev nD) : V3 m ρ c (Pipeline.arrRef spec1 1) = (m ((c : Thread nD τ).loc main_arg8)) := by
  show StableHlo.after hostOps1 (W2 m ρ c) (Proc.devRef .tc main_arg8) = _
  after_results
  exact exit_w3 m ρ c
theorem entry_b3 (c : Dev nD) : V3 m ρ c (Pipeline.arrRef spec1 2) = biasRow (m ((c : Thread nD τ).loc main_arg9)) := by
  show StableHlo.after hostOps1 (W2 m ρ c) (Proc.devRef .tc main_v18) = _
  after_results
  rw [exit_b3 m ρ c]
  rfl

/-! ### At the return -/

/-- THE RESULT'S BUFFER at the last boundary is the kernel's function of the arguments as launched. -/
theorem result_eq (c : Dev nD) : W4 m ρ c (Proc.devRef .tc main_v19)
    = value (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 3).trans ?_
  rw [NodeLayer.final (V3 m ρ) c, entry_updated m ρ c, entry_w3 m ρ c, entry_b3 m ρ c]
  rfl

/-- THE RUN: every weakly fair execution terminates, nothing faulting, the result at the kernel's function of the
    arguments as launched and the arguments unchanged. -/
theorem run : θ_run defs (onTc (τ := τ) (main (F := Ideal))) ⟨m, fun _ => 0, ρ⟩ (fun r => ∀ c : Dev nD,
      r.2.mem ((c.tc : Thread nD τ).loc main_v19)
        = value (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Cert.KernelIdeal.Named.run_named m ρ)

end Cert.KernelIdeal.Whole

end
-- ==== Proof.RefValue.lean ====
/-
  The reference computes the same function of the arguments as the kernel.

  The reference's program is read one operation at a time (the generated stage functions). Its edge filter network
  relu(a @ w1 + b1) @ w2 + b2, multiplied by the gathered neighbour rows, is entry by entry the kernel's messages: the two
  products are the same sums over the contraction's coordinate, the bias broadcast over the edges reads the bias vector's
  entry of the column as the kernel's one-row matrix does, and the rectifier is the maximum with the same zero word. The
  gather of the neighbour rows and the sum of the messages onto their source nodes are the same host operations on both
  sides, so they meet as they are spelt, with no look inside. The last layer, updated @ w3 + b3, is entry by entry the
  kernel's node layer. No law of arithmetic is used beyond equality of the summands: in particular nothing here needs the
  inputs to be finite.
-/
import proofs.«168052_j35201551958457_1_alg».proof.Proof.Gen.ReferenceIdeal.Read
import proofs.«168052_j35201551958457_1_alg».proof.Proof.KernelValue

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The first affine map and the rectifier at edge e, unit k2: the kernel's hidden layer. -/
theorem hidden_eq (x3 : (⟨S800000x50, .f32⟩ : BufTy).Contents (Elt Ideal)) (x4 : (⟨S50x128, .f32⟩ : BufTy).Contents (Elt Ideal)) (x5 : (⟨S128, .f32⟩ : BufTy).Contents (Elt Ideal)) (e : Fin 800000) (k2 : Fin 128) :
    val_main_v4 (F := Ideal) x3 x4 x5 (ix2 e k2) = Cert.KernelIdeal.EdgeMessages.hidden x3 x4 (Cert.KernelIdeal.Whole.biasRow x5) e k2 := by
  unfold Cert.KernelIdeal.EdgeMessages.hidden
  show max (val_main_v0 (F := Ideal) x3 x4 (ix2 e k2) + val_main_v2 (F := Ideal) x5 (ix2 e k2)) (val_main_call0_v0 (F := Ideal) (ix2 e k2)) = _
  refine congrArg₂ max (congrArg₂ (· + ·) ?_ ?_) ?_
  · rw [val_main_v0_apply]
    refine Finset.sum_congr rfl fun k1 _ => congrArg₂ (· * ·) (congrArg x3 ?_) (congrArg x4 ?_)
    · funext a; match a with | ⟨0, _⟩ => rfl | ⟨1, _⟩ => rfl
    · funext a; match a with | ⟨0, _⟩ => rfl | ⟨1, _⟩ => rfl
  · rw [val_main_v2_apply, val_main_v1_apply, Cert.KernelIdeal.Whole.biasRow_apply]
    refine congrArg x5 ?_
    funext a; match a with | ⟨0, _⟩ => rfl
  · rw [val_main_call0_v0_apply, val_main_call0_cst_apply]
    rfl

/-- The reference's messages are the kernel's, as arrays. -/
theorem messages_eq (x0 : (⟨S50000x128, .f32⟩ : BufTy).Contents (Elt Ideal)) (x1 : (⟨S2x800000, .i32⟩ : BufTy).Contents (Elt Ideal)) (x3 : (⟨S800000x50, .f32⟩ : BufTy).Contents (Elt Ideal))
    (x4 : (⟨S50x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v20 (F := Ideal) x0 x1 x3 x4 x5 x6 x7 = (Cert.KernelIdeal.EdgeMessages.messages x3 (Cert.KernelIdeal.Whole.neighbourRows x0 x1) x4 (Cert.KernelIdeal.Whole.biasRow x5) x6 (Cert.KernelIdeal.Whole.biasRow x7)) := by
  funext i
  obtain ⟨e, q, rfl⟩ : ∃ (e : Fin 800000) (q : Fin 128), i = ix2 e q := ⟨i 0, i 1, eq_ix2 i⟩
  show (val_main_v5 (F := Ideal) x3 x4 x5 x6 (ix2 e q) + val_main_v7 (F := Ideal) x7 (ix2 e q)) * val_main_v19 (F := Ideal) x0 x1 (ix2 e q)
    = Cert.KernelIdeal.EdgeMessages.message x3 (Cert.KernelIdeal.Whole.neighbourRows x0 x1) x4 (Cert.KernelIdeal.Whole.biasRow x5) x6 (Cert.KernelIdeal.Whole.biasRow x7) e q
  unfold Cert.KernelIdeal.EdgeMessages.message
  refine congrArg₂ (· * ·) (congrArg₂ (· + ·) ?_ ?_) rfl
  · rw [val_main_v5_apply]
    refine Finset.sum_congr rfl fun k2 _ => congrArg₂ (· * ·) ?_ (congrArg x6 ?_)
    · refine Eq.trans (congrArg (val_main_v4 (F := Ideal) x3 x4 x5) ?_) (hidden_eq x3 x4 x5 e k2)
      funext a; match a with | ⟨0, _⟩ => rfl | ⟨1, _⟩ => rfl
    · funext a; match a with | ⟨0, _⟩ => rfl | ⟨1, _⟩ => rfl
  · rw [val_main_v7_apply, val_main_v6_apply, Cert.KernelIdeal.Whole.biasRow_apply]
    refine congrArg x7 ?_
    funext a; match a with | ⟨0, _⟩ => rfl

/-- The reference's updated node features are the kernel's: the same scatter-add of the same messages. -/
theorem updated_eq (x0 : (⟨S50000x128, .f32⟩ : BufTy).Contents (Elt Ideal)) (x1 : (⟨S2x800000, .i32⟩ : BufTy).Contents (Elt Ideal)) (x3 : (⟨S800000x50, .f32⟩ : BufTy).Contents (Elt Ideal))
    (x4 : (⟨S50x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v24 (F := Ideal) x0 x1 x3 x4 x5 x6 x7 = Cert.KernelIdeal.Whole.updated x0 x1 (Cert.KernelIdeal.EdgeMessages.messages x3 (Cert.KernelIdeal.Whole.neighbourRows x0 x1) x4 (Cert.KernelIdeal.Whole.biasRow x5) x6 (Cert.KernelIdeal.Whole.biasRow x7)) := by
  rw [← messages_eq x0 x1 x3 x4 x5 x6 x7]
  rfl

/-- THE REFERENCE'S RESULT is the kernel's function of the arguments. -/
theorem result_eq (x0 : (⟨S50000x128, .f32⟩ : BufTy).Contents (Elt Ideal)) (x1 : (⟨S2x800000, .i32⟩ : BufTy).Contents (Elt Ideal)) (x3 : (⟨S800000x50, .f32⟩ : BufTy).Contents (Elt Ideal))
    (x4 : (⟨S50x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    val_main_v28 (F := Ideal) x0 x1 x3 x4 x5 x6 x7 x8 x9 = Cert.KernelIdeal.Whole.value x0 x1 x3 x4 x5 x6 x7 x8 x9 := by
  funext i
  obtain ⟨r, q, rfl⟩ : ∃ (r : Fin 50000) (q : Fin 128), i = ix2 r q := ⟨i 0, i 1, eq_ix2 i⟩
  unfold Cert.KernelIdeal.Whole.value Cert.KernelIdeal.NodeLayer.nodeLayer
  show val_main_v25 (F := Ideal) x0 x1 x3 x4 x5 x6 x7 x8 (ix2 r q) + val_main_v27 (F := Ideal) x9 (ix2 r q) = _
  refine congrArg₂ (· + ·) ?_ ?_
  · rw [val_main_v25_apply, updated_eq x0 x1 x3 x4 x5 x6 x7]
    refine Finset.sum_congr rfl fun k _ => congrArg₂ (· * ·) (congrArg _ ?_) (congrArg x8 ?_)
    · funext a; match a with | ⟨0, _⟩ => rfl | ⟨1, _⟩ => rfl
    · funext a; match a with | ⟨0, _⟩ => rfl | ⟨1, _⟩ => rfl
  · rw [val_main_v27_apply, val_main_v26_apply]
    refine Eq.trans (congrArg x9 ?_) (Cert.KernelIdeal.Whole.biasRow_apply x9 q).symm
    funext a; match a with | ⟨0, _⟩ => rfl

end Cert.ReferenceIdeal.RefValue

end
-- ==== Proof.lean ====
/-
  The certificate of the message-passing block: the kernel (a gather of neighbour rows, an edge kernel for the filter
  network times the neighbour rows, a scatter-add onto the source nodes, a node kernel for the last linear layer)
  against its jnp reference, over the extended reals.

  Frames. Each of the three programs terminates on every weakly fair execution, nothing faulting, its argument arrays
  unchanged: the two kernel programs by their generated frame certificates, the reference by its generated run.
  Preserves. The idealization rewrote no operation, so there is nothing to restate.
  Algebraic. The idealized kernel's result is one function `value` of the arguments (Proof/KernelValue.lean: each kernel
  region's output array is its whole-array function — Proof/EdgeMessages.lean, Proof/NodeLayer.lean — of the arrays it is
  entered with, and the host operations between them are read as they are spelt); the reference's result is the same
  function (Proof/RefValue.lean: the same sums entry by entry, the same gather and scatter-add); the two memories agree
  on the arguments. No step uses a law that fails at an infinity, so the finiteness of the inputs is not used.
-/
import proofs.«168052_j35201551958457_1_alg».proof.Defs
import proofs.«168052_j35201551958457_1_alg».proof.Proof.Gen.Kernel
import proofs.«168052_j35201551958457_1_alg».proof.Proof.Gen.Kernel.Skeleton
import proofs.«168052_j35201551958457_1_alg».proof.Proof.Gen.Kernel.Launch
import proofs.«168052_j35201551958457_1_alg».proof.Proof.Gen.Kernel.Points
import proofs.«168052_j35201551958457_1_alg».proof.Proof.Gen.Kernel.Frame
import proofs.«168052_j35201551958457_1_alg».proof.Proof.Gen.KernelIdeal
import proofs.«168052_j35201551958457_1_alg».proof.Proof.Gen.KernelIdeal.Skeleton
import proofs.«168052_j35201551958457_1_alg».proof.Proof.Gen.KernelIdeal.Launch
import proofs.«168052_j35201551958457_1_alg».proof.Proof.Gen.KernelIdeal.Points
import proofs.«168052_j35201551958457_1_alg».proof.Proof.Gen.KernelIdeal.Frame
import proofs.«168052_j35201551958457_1_alg».proof.Proof.Gen.ReferenceIdeal
import proofs.«168052_j35201551958457_1_alg».proof.Proof.Gen.ReferenceIdeal.Run
import proofs.«168052_j35201551958457_1_alg».proof.Proof.Gen.ReferenceIdeal.Read
import proofs.«168052_j35201551958457_1_alg».proof.Proof.Gen.Pre_finite_inputs
import proofs.«168052_j35201551958457_1_alg».proof.Proof.KernelValue
import proofs.«168052_j35201551958457_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at `value` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9⟩ := hagree c
  refine ((Cert.ReferenceIdeal.Read.val_main_v28_eq _ _ _ _ _ _ _ _ _).trans
    (Cert.ReferenceIdeal.RefValue.result_eq _ _ _ _ _ _ _ _ _)).trans ?_
  rw [h0, h1, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
